-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S320000 32) (main_arg2 : IVec S320000 32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S10000x256 : Shape := ⟨2, ![10000, 256]⟩
abbrev S320000 : Shape := ⟨1, ![320000]⟩
abbrev S256x256 : Shape := ⟨2, ![256, 256]⟩
abbrev S256 : Shape := ⟨1, ![256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S8000x256 : Shape := ⟨2, ![8000, 256]⟩
abbrev S2000x256 : Shape := ⟨2, ![2000, 256]⟩

abbrev nBuf : Space → Nat
  | .hbm => 29
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10000x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S1x256, .f32⟩
  | .hbm, ⟨13, _⟩ => ⟨S1x256, .f32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .bf16⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S10000x256, .f32⟩
  | .local _ .vmem, ⟨0, _⟩ => ⟨S8000x256, .bf16⟩
  | .local _ .vmem, ⟨1, _⟩ => ⟨S8000x256, .bf16⟩
  | .local _ .vmem, ⟨2, _⟩ => ⟨S256x256, .bf16⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | .local _ .vmem, ⟨6, _⟩ => ⟨S2000x256, .f32⟩
  | .local _ .vmem, ⟨7, _⟩ => ⟨S2000x256, .f32⟩
  | .local _ .vmem, ⟨8, _⟩ => ⟨S256x256, .bf16⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  transposes_S256x256_S256x256_1_0 : S256x256.Transposes [1, 0] S256x256
  shapeCasts_S256_S1x256 : S256.ShapeCasts S1x256
  bcast_S_S320000 : S_.BroadcastsInDim S320000 (![] : Fin 0 → Fin S320000.rank)
  bcast_S320000_S320000x1_0 : S320000.BroadcastsInDim S320000x1 (![0] : Fin 1 → Fin S320000x1.rank)
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  gather_S10000x256_S320000x1_S320000x256_1_0_n_n_0_1_1256_wf : GatherDims.WF S10000x256 S320000x1 S320000x256 [1] [0] [] [0] [] 1 ![1, 256]
  dot_S8000x256_S256x256_S8000x256_1_0_0_1_n_n_wf : DotDims.WF S8000x256 S256x256 S8000x256 [1] [0] [0] [1] [] []
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S320000x256.size a
  hwx0_0 : ∀ i : grid0.Coords, EltTy.bits .bf16 = 32 ∨ (Rect.block (s := S320000x256) S8000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S320000x256.size a
  hwx0_3 : ∀ i : grid0.Coords, EltTy.bits .f32 = 32 ∨ (Rect.block (s := S320000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S10000x256.size a
  hwx1_3 : ∀ i : grid1.Coords, EltTy.bits .f32 = 32 ∨ (Rect.block (s := S10000x256) S2000x256.size (cc1_transform_3 i) (hinb1_3 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000 : Shape := ⟨1, ![320000]⟩
abbrev S256x256 : Shape := ⟨2, ![256, 256]⟩
abbrev S256 : Shape := ⟨1, ![256]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .i32⟩
  | .hbm, ⟨8, _⟩ => ⟨S320000, .i32⟩
  | .hbm, ⟨9, _⟩ => ⟨S320000, .i1⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S320000x1, .i32⟩
  | .hbm, ⟨15, _⟩ => ⟨S320000x256, .f32⟩
  | .hbm, ⟨16, _⟩ => ⟨S256x256, .f32⟩
  | .hbm, ⟨17, _⟩ => ⟨S320000x256, .f32⟩
  | .hbm, ⟨18, _⟩ => ⟨S1x256, .f32⟩
  | .hbm, ⟨19, _⟩ => ⟨S320000x256, .f32⟩
  | .hbm, ⟨20, _⟩ => ⟨S320000x256, .f32⟩
  | .hbm, ⟨21, _⟩ => ⟨S_, .f32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S256x256, .f32⟩
  | .hbm, ⟨29, _⟩ => ⟨S10000x256, .f32⟩
  | .hbm, ⟨30, _⟩ => ⟨S1x256, .f32⟩
  | .hbm, ⟨31, _⟩ => ⟨S10000x256, .f32⟩
  | .hbm, ⟨32, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  transposes_S256x256_S256x256_1_0 : S256x256.Transposes [1, 0] S256x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.ResultRun.lean ====
/-
  The whole program's run with its result named.
  The program is four segments in a row: host operations, the message region, host operations, the final linear region.
  Each segment starts from the buffer contents the one before it left, so after the last segment every buffer that
  outlives the regions holds the last boundary's contents.  Read at the arguments this gives back the launch contents;
  read at the program's result it gives what the final linear region's write-backs leave in its result array.
-/
import proofs.«150362_j50328426774758_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays end as launched. -/
theorem run_boundary : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result buffer is the final linear region's result array: the last boundary there holds what that region's
    write-backs leave. -/
theorem boundary_result (c : Dev nD) :
    W4 m ρ c (Proc.devRef .tc main_v18) = (dat1 (V3 m ρ) c).arrAt 3 cfg1.N :=
  W4_arr m ρ c 3

end Cert.KernelIdeal.Whole

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelBody.lean ====
/-
  What each kernel body computes, entry by entry, over the extended reals.
  The message body stores `max (x·w + b, 0)` and the final linear body stores `a·w + b`, where `x·w` is a matrix
  product into a zero accumulator (a plain sum over the 256 contracted coordinates), `b` is one row broadcast over all
  rows, and a change of float format is the identity.
-/
import proofs.«150362_j50328426774758_1_alg».proof.Proof.Gen.KernelIdeal.Skeleton
import proofs.«150362_j50328426774758_1_alg».proof.Proof.LibMatmulPlain
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The message body's dimension numbers are the plain ones: rows × contraction by contraction × columns. -/
theorem dot0_plain : dot_S8000x256_S256x256_S8000x256_1_0_0_1_n_n = DotDims.plain 8000 256 256 := rfl

/-- So are the final linear body's. -/
theorem dot1_plain : dot_S2000x256_S256x256_S2000x256_1_0_0_1_n_n = DotDims.plain 2000 256 256 := rfl

/-- Entry `(p, q)` of the message body's stored block: `max (Σ_k x(p, k) · w(k, q) + b(0, q), 0)`. -/
theorem message_pay_apply (x : Vec Ideal S8000x256 .bf16) (w : Vec Ideal S256x256 .bf16) (b : Vec Ideal S1x256 .f32)
    (p : Fin 8000) (q : Fin 256) :
    k0_pay1 (F := Ideal) x w b (ix2 p q) = max ((∑ k : Fin 256, x (ix2 p k) * w (ix2 k q)) + b (ix2 (0 : Fin 1) q)) 0 := by
  unfold k0_pay1
  simp only [maximumf_apply, addf_apply, broadcast_apply, shapeCast_self, dot0_plain, matmul]
  rw [Cert.Lib.matmul_plain_zero_apply, broadcastTo_1b_ab_apply]
  exact congrArg (max _) Ideal.ofBits_zero_f32

/-- Entry `(p, q)` of the final linear body's stored block: `Σ_k a(p, k) · w(k, q) + b(0, q)`. -/
theorem linear_pay_apply (a : Vec Ideal S2000x256 .f32) (w : Vec Ideal S256x256 .bf16) (b : Vec Ideal S1x256 .f32)
    (p : Fin 2000) (q : Fin 256) :
    k1_pay1 (F := Ideal) a w b (ix2 p q) = (∑ k : Fin 256, a (ix2 p k) * w (ix2 k q)) + b (ix2 (0 : Fin 1) q) := by
  unfold k1_pay1
  simp only [addf_apply, shapeCast_self, dot1_plain, matmul]
  rw [Cert.Lib.matmul_plain_zero_apply, broadcastTo_1b_ab_apply]
  rfl

end Cert.KernelIdeal.Body

end
-- ==== Proof.Layer.lean ====
/-
  One graph layer, as mathematics, over the extended reals.
  For a row matrix `a` (one row per edge, or per node), a weight matrix `W` and a bias vector `b`, the affine map
  `a ↦ a·Wᵀ + b` has entry `(n, j) = Σ_k a(n, k) · W(j, k) + b(j)`; a message is its positive part.
  The same two maps are also written the way a row-block computation meets them: the weight matrix already
  transposed (`w(k, j)`) and the bias as a one-row matrix (`b(0, j)`).
-/
import Idealize.ShloMosaic.PureOps.Ideal.Laws
import Idealize.ShloMosaic.Lib.ValueIdx

noncomputable section

open scoped BigOperators

namespace Cert.Layer

open Idealize.ShloMosaic Idealize.ShloMosaic.ValueIdx

/-- `a·Wᵀ + b`: entry `(n, j)` is `Σ_k a(n, k) · W(j, k) + b(j)`. -/
def affine {M : Nat} (a : (⟨2, ![M, 256]⟩ : Shape).Idx → EReal) (W : (⟨2, ![256, 256]⟩ : Shape).Idx → EReal)
    (b : (⟨1, ![256]⟩ : Shape).Idx → EReal) : (⟨2, ![M, 256]⟩ : Shape).Idx → EReal :=
  fun i => (∑ k : Fin 256, a (ix2 (i 0) k) * W (ix2 (i 1) k)) + b (ix1 (i 1))

/-- The positive part of `a·Wᵀ + b`. -/
def message {M : Nat} (a : (⟨2, ![M, 256]⟩ : Shape).Idx → EReal) (W : (⟨2, ![256, 256]⟩ : Shape).Idx → EReal)
    (b : (⟨1, ![256]⟩ : Shape).Idx → EReal) : (⟨2, ![M, 256]⟩ : Shape).Idx → EReal :=
  fun i => max (affine a W b i) 0

theorem affine_apply {M : Nat} (a : (⟨2, ![M, 256]⟩ : Shape).Idx → EReal) (W : (⟨2, ![256, 256]⟩ : Shape).Idx → EReal)
    (b : (⟨1, ![256]⟩ : Shape).Idx → EReal) (p : Fin M) (q : Fin 256) :
    affine a W b (ix2 p q) = (∑ k : Fin 256, a (ix2 p k) * W (ix2 q k)) + b (ix1 q) := rfl

theorem message_apply {M : Nat} (a : (⟨2, ![M, 256]⟩ : Shape).Idx → EReal) (W : (⟨2, ![256, 256]⟩ : Shape).Idx → EReal)
    (b : (⟨1, ![256]⟩ : Shape).Idx → EReal) (p : Fin M) (q : Fin 256) :
    message a W b (ix2 p q) = max ((∑ k : Fin 256, a (ix2 p k) * W (ix2 q k)) + b (ix1 q)) 0 := rfl

/-- Rows against columns: entry `(n, j)` is `Σ_k a(n, k) · w(k, j) + b(0, j)`, for a weight matrix given by columns and a
    one-row bias. -/
def affineRows {M : Nat} (a : (⟨2, ![M, 256]⟩ : Shape).Idx → EReal) (w : (⟨2, ![256, 256]⟩ : Shape).Idx → EReal)
    (b : (⟨2, ![1, 256]⟩ : Shape).Idx → EReal) : (⟨2, ![M, 256]⟩ : Shape).Idx → EReal :=
  fun i => (∑ k : Fin 256, a (ix2 (i 0) k) * w (ix2 k (i 1))) + b (ix2 (0 : Fin 1) (i 1))

/-- Its positive part. -/
def messageRows {M : Nat} (a : (⟨2, ![M, 256]⟩ : Shape).Idx → EReal) (w : (⟨2, ![256, 256]⟩ : Shape).Idx → EReal)
    (b : (⟨2, ![1, 256]⟩ : Shape).Idx → EReal) : (⟨2, ![M, 256]⟩ : Shape).Idx → EReal :=
  fun i => max (affineRows a w b i) 0

theorem affineRows_apply {M : Nat} (a : (⟨2, ![M, 256]⟩ : Shape).Idx → EReal) (w : (⟨2, ![256, 256]⟩ : Shape).Idx → EReal)
    (b : (⟨2, ![1, 256]⟩ : Shape).Idx → EReal) (p : Fin M) (q : Fin 256) :
    affineRows a w b (ix2 p q) = (∑ k : Fin 256, a (ix2 p k) * w (ix2 k q)) + b (ix2 (0 : Fin 1) q) := rfl

theorem messageRows_apply {M : Nat} (a : (⟨2, ![M, 256]⟩ : Shape).Idx → EReal) (w : (⟨2, ![256, 256]⟩ : Shape).Idx → EReal)
    (b : (⟨2, ![1, 256]⟩ : Shape).Idx → EReal) (p : Fin M) (q : Fin 256) :
    messageRows a w b (ix2 p q) = max ((∑ k : Fin 256, a (ix2 p k) * w (ix2 k q)) + b (ix2 (0 : Fin 1) q)) 0 := rfl

end Cert.Layer

end
-- ==== Proof.MessageRegion.lean ====
/-
  The message region: all forty grid points' write-backs, as one array.
  The grid has 40 points; point `t` stages rows `8000·t … 8000·t + 7999` of the row operand, the whole weight matrix and
  the whole bias row, and writes back the same rows of the result.  Every row of the result lies in exactly the block of
  point `row / 8000`, so the result array after the region is ONE function of the three arrays the region was entered
  with: entry `(r, q)` is `max (Σ_k g(r, k) · w(k, q) + b(0, q), 0)`.
-/
import proofs.«150362_j50328426774758_1_alg».proof.Proof.Gen.KernelIdeal.Frame
import proofs.«150362_j50328426774758_1_alg».proof.Proof.KernelBody
import proofs.«150362_j50328426774758_1_alg».proof.Proof.Layer
import Idealize.ShloMosaic.Lib.Pipeline.Value

noncomputable section

open scoped BigOperators

namespace Cert.KernelIdeal.MessageRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- A grid point is below 40. -/
theorem point_lt (t : Fin cfg0.N) : t.val < 40 := by
  exact lt_of_lt_of_eq t.isLt (show cfg0.N = 40 from N_0)

/-- The array row that row `p` of point `t`'s block is. -/
def row (t : Fin cfg0.N) (p : Fin 8000) : Fin 320000 :=
  ⟨t.val * 8000 + p.val, by have := point_lt t; have := p.isLt; omega⟩

/-- The printed index maps over the grid: the row operand and the result move with the point along the rows, the
    weight matrix and the bias row stay at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Where an entry of each window's block at point `t` sits in its array. -/
theorem emb_rows (t : Fin cfg0.N) (p : Fin 8000) (k : Fin 256) :
    ((cfg0.win 0).blk t).view.emb (ix2 p k) = ix2 (row t p) k := by
  obtain ⟨e0, e1, -⟩ := index_facts t
  funext a; apply Fin.ext
  match a with
  | ⟨0, _⟩ => show win0_0.index t (0 : Fin 2) * 8000 + 1 * p.val = t.val * 8000 + p.val; rw [e0]; omega
  | ⟨1, _⟩ => show win0_0.index t (1 : Fin 2) * 256 + 1 * k.val = k.val; rw [e1]; omega

theorem emb_weights (t : Fin cfg0.N) (k : Fin 256) (q : Fin 256) :
    ((cfg0.win 1).blk t).view.emb (ix2 k q) = ix2 k q := by
  obtain ⟨-, -, e2, e3, -⟩ := index_facts t
  funext a; apply Fin.ext
  match a with
  | ⟨0, _⟩ => show win0_1.index t (0 : Fin 2) * 256 + 1 * k.val = k.val; rw [e2]; omega
  | ⟨1, _⟩ => show win0_1.index t (1 : Fin 2) * 256 + 1 * q.val = q.val; rw [e3]; omega

theorem emb_bias (t : Fin cfg0.N) (q : Fin 256) :
    ((cfg0.win 2).blk t).view.emb (ix2 (0 : Fin 1) q) = ix2 (0 : Fin 1) q := by
  obtain ⟨-, -, -, -, e4, e5, -⟩ := index_facts t
  funext a; apply Fin.ext
  match a with
  | ⟨0, _⟩ => show win0_2.index t (0 : Fin 2) * 1 + 1 * 0 = 0; rw [e4]
  | ⟨1, _⟩ => show win0_2.index t (1 : Fin 2) * 256 + 1 * q.val = q.val; rw [e5]; omega

theorem emb_result (t : Fin cfg0.N) (p : Fin 8000) (q : Fin 256) :
    ((cfg0.win 3).blk t).view.emb (ix2 p q) = ix2 (row t p) q := by
  obtain ⟨-, -, -, -, -, -, e6, e7⟩ := index_facts t
  funext a; apply Fin.ext
  match a with
  | ⟨0, _⟩ => show win0_3.index t (0 : Fin 2) * 8000 + 1 * p.val = t.val * 8000 + p.val; rw [e6]; omega
  | ⟨1, _⟩ => show win0_3.index t (1 : Fin 2) * 256 + 1 * q.val = q.val; rw [e7]; omega

/-- The blocks the body loads at point `t`, read off the arrays the region was entered with. -/
theorem read_rows (c : Dev nD) (t : Fin cfg0.N) (p : Fin 8000) (k : Fin 256) :
    iblk0 V c 0 t (ix2 p k) = V c main_v13 (ix2 (row t p) k) := by
  show V c main_v13 (((cfg0.win 0).blk t).view.emb (ix2 p k)) = _
  rw [emb_rows]

theorem read_weights (c : Dev nD) (t : Fin cfg0.N) (k : Fin 256) (q : Fin 256) :
    iblk0 V c 1 t (ix2 k q) = V c main_v2 (ix2 k q) := by
  show V c main_v2 (((cfg0.win 1).blk t).view.emb (ix2 k q)) = _
  rw [emb_weights]

theorem read_bias (c : Dev nD) (t : Fin cfg0.N) (q : Fin 256) :
    iblk0 V c 2 t (ix2 (0 : Fin 1) q) = V c main_v5 (ix2 (0 : Fin 1) q) := by
  show V c main_v5 (((cfg0.win 2).blk t).view.emb (ix2 (0 : Fin 1) q)) = _
  rw [emb_bias]

/-- WHAT POINT `t` WRITES BACK is block `t` of the rows-by-columns form of the arrays the region was entered with. -/
theorem flushed_eq (c : Dev nD) (t : Fin cfg0.N) :
    (dat0 V c).flushed 3 t = ((cfg0.win 3).blk t).view.read (Elt Ideal) (Layer.messageRows (M := 320000) (V c main_v13) (V c main_v2) (V c main_v5)) := by
  show (cfg0.win 3).cut (grid0.coords t) ((dat0 V c).after 3 t) = _
  rw [after0_3]
  unfold out0_3
  rw [View.canon_unit_zero zero_offsets]
  simp only [View.ld_unit_zero (S := S8000x256) zero_offsets, View.ld_unit_zero (S := S256x256) zero_offsets,
    View.ld_unit_zero (S := S1x256) zero_offsets]
  funext j
  obtain ⟨p, q, rfl⟩ : ∃ (p : Fin 8000) (q : Fin 256), j = ix2 p q := ⟨j 0, j 1, eq_ix2 j⟩
  show k0_pay1 (F := Ideal) (iblk0 V c 0 t) (iblk0 V c 1 t) (iblk0 V c 2 t) (ix2 p q)
    = Layer.messageRows (M := 320000) (V c main_v13) (V c main_v2) (V c main_v5) (((cfg0.win 3).blk t).view.emb (ix2 p q))
  refine (Body.message_pay_apply (iblk0 V c 0 t) (iblk0 V c 1 t) (iblk0 V c 2 t) p q).trans ?_
  rw [emb_result, Layer.messageRows_apply]
  simp only [read_rows V c t, read_weights V c t, read_bias V c t]

/-- An index of the result array is in point `t`'s block iff each coordinate is in the block's range on its axis. -/
theorem mem_blk (t : Fin cfg0.N) (i : S320000x256.Idx) :
    i ∈ ((cfg0.win 3).blk t).view.set ↔ ∀ a : Fin 2, win0_3.index t a * S8000x256.size a ≤ (i a).val ∧ (i a).val < win0_3.index t a * S8000x256.size a + S8000x256.size a := by
  show i ∈ ((View.whole main_v14).slice (win0_3.rect t)).set ↔ _
  rw [View.set_slice_whole, Rect.mem_set_unit]
  exact Iff.rfl

/-- Every entry of the result array is written back by the point its row falls in. -/
theorem cover (i : S320000x256.Idx) :
    ∃ t : Fin cfg0.N, (cfg0.win 3).flush t = true ∧ i ∈ ((cfg0.win 3).blk t).view.set := by
  have hi0 : (i 0).val < 320000 := (i 0).isLt
  have hi1 : (i 1).val < 256 := (i 1).isLt
  have ht : (i 0).val / 8000 < cfg0.N := by rw [show cfg0.N = 40 from N_0]; omega
  obtain ⟨-, -, -, -, -, -, e6, e7⟩ := index_facts ⟨(i 0).val / 8000, ht⟩
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, ht⟩ (1 : Fin 2) * 256 ≤ (i 1).val ∧ (i 1).val < win0_3.index ⟨(i 0).val / 8000, ht⟩ (1 : Fin 2) * 256 + 256
    rw [e7]; omega

/-- THE RESULT ARRAY after the region: the rows-by-columns form of the three arrays it was entered with. -/
theorem final (c : Dev nD) :
    (dat0 V c).arrAt 3 cfg0.N = Layer.messageRows (M := 320000) (V c main_v13) (V c main_v2) (V c main_v5) :=
  (dat0 V c).arrAt_eq_of_cover 3 _ (fun t _ => flushed_eq V c t) cover

end Cert.KernelIdeal.MessageRegion

end
-- ==== Proof.LinearRegion.lean ====
/-
  The final linear region: all five grid points' write-backs, as one array.
  The grid has 5 points; point `t` stages rows `2000·t … 2000·t + 1999` of the row operand, the whole weight matrix and
  the whole bias row, and writes back the same rows of the result.  Every row of the result lies in exactly the block of
  point `row / 2000`, so the result array after the region is ONE function of the three arrays the region was entered
  with: entry `(r, q)` is `Σ_k a(r, k) · w(k, q) + b(0, q)`.
-/
import proofs.«150362_j50328426774758_1_alg».proof.Proof.Gen.KernelIdeal.Frame
import proofs.«150362_j50328426774758_1_alg».proof.Proof.KernelBody
import proofs.«150362_j50328426774758_1_alg».proof.Proof.Layer
import Idealize.ShloMosaic.Lib.Pipeline.Value

noncomputable section

open scoped BigOperators

namespace Cert.KernelIdeal.LinearRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- A grid point is below 5. -/
theorem point_lt (t : Fin cfg1.N) : t.val < 5 := by
  exact lt_of_lt_of_eq t.isLt (show cfg1.N = 5 from N_1)

/-- The array row that row `p` of point `t`'s block is. -/
def row (t : Fin cfg1.N) (p : Fin 2000) : Fin 10000 :=
  ⟨t.val * 2000 + p.val, by have := point_lt t; have := p.isLt; omega⟩

/-- The printed index maps over the grid: the row operand and the result move with the point along the rows, the
    weight matrix and the bias row stay at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Where an entry of each window's block at point `t` sits in its array. -/
theorem emb_rows (t : Fin cfg1.N) (p : Fin 2000) (k : Fin 256) :
    ((cfg1.win 0).blk t).view.emb (ix2 p k) = ix2 (row t p) k := by
  obtain ⟨e0, e1, -⟩ := index_facts t
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem emb_weights (t : Fin cfg1.N) (k : Fin 256) (q : Fin 256) :
    ((cfg1.win 1).blk t).view.emb (ix2 k q) = ix2 k q := by
  obtain ⟨-, -, e2, e3, -⟩ := index_facts t
  funext a; apply Fin.ext
  match a with
  | ⟨0, _⟩ => show win1_1.index t (0 : Fin 2) * 256 + 1 * k.val = k.val; rw [e2]; omega
  | ⟨1, _⟩ => show win1_1.index t (1 : Fin 2) * 256 + 1 * q.val = q.val; rw [e3]; omega

theorem emb_bias (t : Fin cfg1.N) (q : Fin 256) :
    ((cfg1.win 2).blk t).view.emb (ix2 (0 : Fin 1) q) = ix2 (0 : Fin 1) q := by
  obtain ⟨-, -, -, -, e4, e5, -⟩ := index_facts t
  funext a; apply Fin.ext
  match a with
  | ⟨0, _⟩ => show win1_2.index t (0 : Fin 2) * 1 + 1 * 0 = 0; rw [e4]
  | ⟨1, _⟩ => show win1_2.index t (1 : Fin 2) * 256 + 1 * q.val = q.val; rw [e5]; omega

theorem emb_result (t : Fin cfg1.N) (p : Fin 2000) (q : Fin 256) :
    ((cfg1.win 3).blk t).view.emb (ix2 p q) = ix2 (row t p) q := by
  obtain ⟨-, -, -, -, -, -, e6, e7⟩ := index_facts t
  funext a; apply Fin.ext
  match a with
  | ⟨0, _⟩ => show win1_3.index t (0 : Fin 2) * 2000 + 1 * p.val = t.val * 2000 + p.val; rw [e6]; omega
  | ⟨1, _⟩ => show win1_3.index t (1 : Fin 2) * 256 + 1 * q.val = q.val; rw [e7]; omega

/-- The blocks the body loads at point `t`, read off the arrays the region was entered with. -/
theorem read_rows (c : Dev nD) (t : Fin cfg1.N) (p : Fin 2000) (k : Fin 256) :
    iblk1 V c 0 t (ix2 p k) = V c main_v17 (ix2 (row t p) k) := by
  show V c main_v17 (((cfg1.win 0).blk t).view.emb (ix2 p k)) = _
  rw [emb_rows]

theorem read_weights (c : Dev nD) (t : Fin cfg1.N) (k : Fin 256) (q : Fin 256) :
    iblk1 V c 1 t (ix2 k q) = V c main_v4 (ix2 k q) := by
  show V c main_v4 (((cfg1.win 1).blk t).view.emb (ix2 k q)) = _
  rw [emb_weights]

theorem read_bias (c : Dev nD) (t : Fin cfg1.N) (q : Fin 256) :
    iblk1 V c 2 t (ix2 (0 : Fin 1) q) = V c main_v6 (ix2 (0 : Fin 1) q) := by
  show V c main_v6 (((cfg1.win 2).blk t).view.emb (ix2 (0 : Fin 1) q)) = _
  rw [emb_bias]

/-- WHAT POINT `t` WRITES BACK is block `t` of the rows-by-columns form of the arrays the region was entered with. -/
theorem flushed_eq (c : Dev nD) (t : Fin cfg1.N) :
    (dat1 V c).flushed 3 t = ((cfg1.win 3).blk t).view.read (Elt Ideal) (Layer.affineRows (M := 10000) (V c main_v17) (V c main_v4) (V c main_v6)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S256x256) zero_offsets,
    View.ld_unit_zero (S := S1x256) zero_offsets]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (ix2 p q)
    = Layer.affineRows (M := 10000) (V c main_v17) (V c main_v4) (V c main_v6) (((cfg1.win 3).blk t).view.emb (ix2 p q))
  refine (Body.linear_pay_apply (iblk1 V c 0 t) (iblk1 V c 1 t) (iblk1 V c 2 t) p q).trans ?_
  rw [emb_result, Layer.affineRows_apply]
  simp only [read_rows V c t, read_weights V c t, read_bias V c t]

/-- An index of the result array is in point `t`'s block iff each coordinate is in the block's range on its axis. -/
theorem mem_blk (t : Fin cfg1.N) (i : S10000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v18).slice (win1_3.rect t)).set ↔ _
  rw [View.set_slice_whole, Rect.mem_set_unit]
  exact Iff.rfl

/-- Every entry of the result array is written back by the point its row falls in. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have ht : (i 0).val / 2000 < cfg1.N := by rw [show cfg1.N = 5 from N_1]; omega
  obtain ⟨-, -, -, -, -, -, e6, e7⟩ := index_facts ⟨(i 0).val / 2000, ht⟩
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val ∧ (i 1).val < win1_3.index ⟨(i 0).val / 2000, ht⟩ (1 : Fin 2) * 256 + 256
    rw [e7]; omega

/-- THE RESULT ARRAY after the region: the rows-by-columns form of the three arrays it was entered with. -/
theorem final (c : Dev nD) :
    (dat1 V c).arrAt 3 cfg1.N = Layer.affineRows (M := 10000) (V c main_v17) (V c main_v4) (V c main_v6) :=
  (dat1 V c).arrAt_eq_of_cover 3 _ (fun t _ => flushed_eq V c t) cover

end Cert.KernelIdeal.LinearRegion

end
-- ==== Proof.Boundary.lean ====
/-
  What each region is entered with, as functions of the launch memory.
  Before the message region the host narrows the node features and gathers one row per edge (a negative source index
  wrapped by the node count), transposes and narrows the message weights, and reshapes the message bias to one row.
  Between the regions it scatter-adds the message region's result array into a zero array at the destination indices.
  The final linear region's weights and bias were prepared before the message region, which does not touch them.
-/
import proofs.«150362_j50328426774758_1_alg».proof.Proof.Gen.KernelIdeal.Frame
import Idealize.ShloMosaic.Lib.StableHlo.Run

noncomputable section

namespace Cert.KernelIdeal.Boundary

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The message region's row operand: the narrowed node features gathered at the wrapped source indices. -/
theorem message_rows (c : Dev nD) :
    V1 m ρ c main_v13 = Host.gather gather_S10000x256_S320000x1_S320000x256_1_0_n_n_0_1_1256
      (truncf .bf16 (m ((c : Thread nD τ).loc main_arg0)) bitsLt_bf16_f32)
      (broadcastInDim S320000x1 ![0] bcast_S320000_S320000x1_0
        (select (cmpi .slt (m ((c : Thread nD τ).loc main_arg1)) (broadcastInDim S320000 ![] bcast_S_S320000 (constantI S_ 32 0#32)))
          (addi (m ((c : Thread nD τ).loc main_arg1)) (broadcastInDim S320000 ![] bcast_S_S320000 (constantI S_ 32 10000#32)))
          (m ((c : Thread nD τ).loc main_arg1)))) := by
  show StableHlo.after hostOps0 (W0 m ρ c) (Proc.devRef .tc main_v13) = _
  after_results <;> rfl

/-- Its weight operand: the message weights transposed, then narrowed. -/
theorem message_weights (c : Dev nD) :
    V1 m ρ c main_v2 = truncf .bf16 (transpose S256x256 [1, 0] (m ((c : Thread nD τ).loc main_arg3)) transposes_S256x256_S256x256_1_0) bitsLt_bf16_f32 := by
  show StableHlo.after hostOps0 (W0 m ρ c) (Proc.devRef .tc main_v2) = _
  after_results <;> rfl

/-- Its bias operand: the message bias as one row. -/
theorem message_bias (c : Dev nD) :
    V1 m ρ c main_v5 = shapeCast S1x256 (m ((c : Thread nD τ).loc main_arg4)) shapeCasts_S256_S1x256 := by
  show StableHlo.after hostOps0 (W0 m ρ c) (Proc.devRef .tc main_v5) = _
  after_results <;> rfl

/-- A buffer the host wrote before the message region and that region does not own is unchanged at its exit. -/
theorem kept_main_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

theorem kept_main_v4 (c : Dev nD) : W2 m ρ c (Proc.devRef .tc main_v4)
    = truncf .bf16 (transpose S256x256 [1, 0] (m ((c : Thread nD τ).loc main_arg5)) transposes_S256x256_S256x256_1_0) bitsLt_bf16_f32 :=
  (W2_of_ne m ρ c main_v4 (by decide)).trans (by
    show StableHlo.after hostOps0 (W0 m ρ c) (Proc.devRef .tc main_v4) = _
    after_results <;> rfl)

theorem kept_main_v6 (c : Dev nD) : W2 m ρ c (Proc.devRef .tc main_v6)
    = shapeCast S1x256 (m ((c : Thread nD τ).loc main_arg6)) shapeCasts_S256_S1x256 :=
  (W2_of_ne m ρ c main_v6 (by decide)).trans (by
    show StableHlo.after hostOps0 (W0 m ρ c) (Proc.devRef .tc main_v6) = _
    after_results <;> rfl)

/-- The final linear region's row operand: the message region's result array scatter-added into zeros at the
    destination indices. -/
theorem linear_rows (c : Dev nD) :
    V3 m ρ c main_v17 = Host.scatterAdd scatter_S10000x256_S320000x1_S320000x256_1_0_0_1
      (broadcastInDim S10000x256 ![] bcast_S_S10000x256 (constant S_ .f32 0x00000000#32))
      (broadcastInDim S320000x1 ![0] bcast_S320000_S320000x1_0 (m ((c : Thread nD τ).loc main_arg2)))
      ((dat0 (V1 m ρ) c).arrAt 3 cfg0.N) := by
  have e14 : W2 m ρ c (Proc.devRef .tc main_v14) = (dat0 (V1 m ρ) c).arrAt 3 cfg0.N := W2_arr m ρ c 3
  show StableHlo.after hostOps1 (W2 m ρ c) (Proc.devRef .tc main_v17) = _
  after_results
  rw [e14, kept_main_arg2]

/-- Its weight operand: the final weights transposed, then narrowed. -/
theorem linear_weights (c : Dev nD) :
    V3 m ρ c main_v4 = truncf .bf16 (transpose S256x256 [1, 0] (m ((c : Thread nD τ).loc main_arg5)) transposes_S256x256_S256x256_1_0) bitsLt_bf16_f32 := by
  show StableHlo.after hostOps1 (W2 m ρ c) (Proc.devRef .tc main_v4) = _
  after_results
  exact kept_main_v4 m ρ c

/-- Its bias operand: the final bias as one row. -/
theorem linear_bias (c : Dev nD) :
    V3 m ρ c main_v6 = shapeCast S1x256 (m ((c : Thread nD τ).loc main_arg6)) shapeCasts_S256_S1x256 := by
  show StableHlo.after hostOps1 (W2 m ρ c) (Proc.devRef .tc main_v6) = _
  after_results
  exact kept_main_v6 m ρ c

end Cert.KernelIdeal.Boundary

end
-- ==== Proof.LibDotGeneralPlain.lean ====
/-
  A host `dot_general` with the plain dimension numbers, read at an entry, over the extended reals.

  For `DotDims.plain M K N` (an `M × K` left operand, a `K × N` right operand, the left one's columns contracted with
  the right one's rows, no batch axis) entry `(p, q)` of the host's product is `Σ_{k < K} l (p, k) * r (k, q)`, whatever
  the precision attribute: the contraction index has one coordinate, which runs over `Fin K`.
-/
import Idealize.ShloMosaic.PureOps.Ideal.Laws
import Idealize.ShloMosaic.Lib.ValueIdx
import proofs.«150362_j50328426774758_1_alg».proof.Proof.LibMatmulPlain

noncomputable section

open scoped BigOperators

namespace Cert.Lib

open Idealize.ShloMosaic Idealize.ShloMosaic.ValueIdx

/-- ENTRY `(p, q)` OF A PLAIN HOST PRODUCT: the sum over `k : Fin K` of `l (p, k) * r (k, q)`. -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.LayerForms.lean ====
/-
  The two ways the programs spell one layer, both equal to the layer itself.
  A row-block computation multiplies by the transposed weight matrix (format changes are the identity on the extended
  reals) and adds the bias reshaped to one row; the host computation takes the host's product with the transposed weight
  matrix and adds the bias broadcast over all rows.  Entry `(n, j)` of either is `Σ_k a(n, k) · W(j, k) + b(j)`: a
  transposed matrix read at `(k, j)` is the matrix at `(j, k)`, and the one-row and the broadcast bias read `b(j)`.
-/
import proofs.«150362_j50328426774758_1_alg».proof.Proof.Layer
import proofs.«150362_j50328426774758_1_alg».proof.Proof.LibDotGeneralPlain
import Idealize.ShloMosaic.Lib.ValueLayout
import Idealize.ShloMosaic.Lib.Pipeline.Value

noncomputable section

open scoped BigOperators

namespace Cert.Layer

open Idealize.ShloMosaic Idealize.ShloMosaic.ValueIdx

/-- Rows against the columns of the transposed weight matrix, plus the one-row bias: the layer's affine map. -/
theorem affineRows_transposed {M : Nat} (a : (⟨2, ![M, 256]⟩ : Shape).Idx → EReal) (W : FVec Ideal ⟨2, ![256, 256]⟩ .f32)
    (b : FVec Ideal ⟨1, ![256]⟩ .f32) (hT : (⟨2, ![256, 256]⟩ : Shape).Transposes [1, 0] ⟨2, ![256, 256]⟩)
    (hS : (⟨1, ![256]⟩ : Shape).ShapeCasts ⟨2, ![1, 256]⟩) (hb : FTy.bf16.bits < FTy.f32.bits) :
    affineRows a (truncf .bf16 (transpose ⟨2, ![256, 256]⟩ [1, 0] W hT) hb) (shapeCast ⟨2, ![1, 256]⟩ b hS) = affine a W b := by
  funext i
  obtain ⟨p, q, rfl⟩ : ∃ (p : Fin M) (q : Fin 256), i = ix2 p q := ⟨i 0, i 1, eq_ix2 i⟩
  rw [affineRows_apply, affine_apply, shapeCast_a_1a_apply]
  refine congrArg (· + b (ix1 q)) (Finset.sum_congr rfl fun k _ => ?_)
  rw [truncf_apply, transpose_ix2_apply]

/-- The same for the positive part. -/
theorem messageRows_transposed {M : Nat} (a : (⟨2, ![M, 256]⟩ : Shape).Idx → EReal) (W : FVec Ideal ⟨2, ![256, 256]⟩ .f32)
    (b : FVec Ideal ⟨1, ![256]⟩ .f32) (hT : (⟨2, ![256, 256]⟩ : Shape).Transposes [1, 0] ⟨2, ![256, 256]⟩)
    (hS : (⟨1, ![256]⟩ : Shape).ShapeCasts ⟨2, ![1, 256]⟩) (hb : FTy.bf16.bits < FTy.f32.bits) :
    messageRows a (truncf .bf16 (transpose ⟨2, ![256, 256]⟩ [1, 0] W hT) hb) (shapeCast ⟨2, ![1, 256]⟩ b hS) = message a W b := by
  funext i
  show max (affineRows a _ _ i) 0 = max (affine a W b i) 0
  rw [affineRows_transposed]

/-- The bias broadcast to one row and then over all rows reads `b(j)` at `(n, j)`. -/
theorem bias_rows_apply {M : Nat} (b : (⟨1, ![256]⟩ : Shape).Idx → EReal)
    (h1 : (⟨1, ![256]⟩ : Shape).BroadcastsInDim ⟨2, ![1, 256]⟩ (![1] : Fin 1 → Fin 2))
    (h2 : (⟨2, ![1, 256]⟩ : Shape).BroadcastsInDim ⟨2, ![M, 256]⟩ (![0, 1] : Fin 2 → Fin 2)) (p : Fin M) (q : Fin 256) :
    broadcastInDim ⟨2, ![M, 256]⟩ ![0, 1] h2 (broadcastInDim ⟨2, ![1, 256]⟩ ![1] h1 b) (ix2 p q) = b (ix1 q) := by
  rw [broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])]
  exact broadcastInDim_apply ![1] h1 b (ix2 (0 : Fin 1) q) (ix1 q) (fun a => match a with
    | ⟨0, _⟩ => by show q.val = if (256 : Nat) = 1 then 0 else q.val; rw [if_neg (by decide)])

/-- The host's product with the transposed weight matrix, plus the bias broadcast over all rows: the layer's affine map. -/
theorem affine_host {M : Nat} (a : FVec Ideal ⟨2, ![M, 256]⟩ .f32) (W : FVec Ideal ⟨2, ![256, 256]⟩ .f32)
    (b : FVec Ideal ⟨1, ![256]⟩ .f32) (hT : (⟨2, ![256, 256]⟩ : Shape).Transposes [1, 0] ⟨2, ![256, 256]⟩)
    (h1 : (⟨1, ![256]⟩ : Shape).BroadcastsInDim ⟨2, ![1, 256]⟩ (![1] : Fin 1 → Fin 2))
    (h2 : (⟨2, ![1, 256]⟩ : Shape).BroadcastsInDim ⟨2, ![M, 256]⟩ (![0, 1] : Fin 2 → Fin 2)) :
    addf (Host.dotGeneral (DotDims.plain M 256 256) none a (transpose ⟨2, ![256, 256]⟩ [1, 0] W hT))
        (broadcastInDim ⟨2, ![M, 256]⟩ ![0, 1] h2 (broadcastInDim ⟨2, ![1, 256]⟩ ![1] h1 b))
      = affine a W b := by
  funext i
  obtain ⟨p, q, rfl⟩ : ∃ (p : Fin M) (q : Fin 256), i = ix2 p q := ⟨i 0, i 1, eq_ix2 i⟩
  rw [addf_apply, Cert.Lib.dotGeneral_plain_apply, bias_rows_apply, affine_apply]
  refine congrArg (· + b (ix1 q)) (Finset.sum_congr rfl fun k _ => ?_)
  rw [transpose_ix2_apply]

/-- Its maximum with the zero constant broadcast over all entries: the layer's message. -/
theorem message_host {M : Nat} (a : FVec Ideal ⟨2, ![M, 256]⟩ .f32) (W : FVec Ideal ⟨2, ![256, 256]⟩ .f32)
    (b : FVec Ideal ⟨1, ![256]⟩ .f32) (hT : (⟨2, ![256, 256]⟩ : Shape).Transposes [1, 0] ⟨2, ![256, 256]⟩)
    (h1 : (⟨1, ![256]⟩ : Shape).BroadcastsInDim ⟨2, ![1, 256]⟩ (![1] : Fin 1 → Fin 2))
    (h2 : (⟨2, ![1, 256]⟩ : Shape).BroadcastsInDim ⟨2, ![M, 256]⟩ (![0, 1] : Fin 2 → Fin 2))
    (h0 : (⟨0, ![]⟩ : Shape).BroadcastsInDim ⟨2, ![M, 256]⟩ (![] : Fin 0 → Fin 2)) :
    maximumf (addf (Host.dotGeneral (DotDims.plain M 256 256) none a (transpose ⟨2, ![256, 256]⟩ [1, 0] W hT))
          (broadcastInDim ⟨2, ![M, 256]⟩ ![0, 1] h2 (broadcastInDim ⟨2, ![1, 256]⟩ ![1] h1 b)))
        (broadcastInDim ⟨2, ![M, 256]⟩ ![] h0 (constant (F := Ideal) ⟨0, ![]⟩ .f32 0x00000000#32))
      = message a W b := by
  rw [affine_host]
  funext i
  rw [maximumf_apply, broadcastInDim_apply ![] h0 _ i ix0 (fun a => a.elim0), constant_apply, Ideal.ofBits_zero_f32]
  rfl

end Cert.Layer

end
-- ==== Proof.Value.lean ====
/-
  The program's result as one function of its seven arguments, over the extended reals:
  gather one node-feature row per edge (a negative source index wrapped by the node count), take the message layer of
  the gathered rows, scatter-add the messages into a zero array at the destination indices, and take the final affine
  layer of the sums.  The gather and the scatter-add are the host's own operations, kept whole.
-/
import proofs.«150362_j50328426774758_1_alg».proof.KernelIdeal
import proofs.«150362_j50328426774758_1_alg».proof.Proof.Gen.KernelIdeal
import proofs.«150362_j50328426774758_1_alg».proof.Proof.Layer

noncomputable section

namespace Cert.KernelIdeal.Whole

open Cert.KernelIdeal Cert.KernelIdeal.Gen Idealize.ShloMosaic

/-- The result array from the node features `x0`, the source and destination indices `x1`, `x2`, the message weights and
    bias `x3`, `x4` and the final weights and bias `x5`, `x6`. -/
def value (x0 : (⟨S10000x256, .f32⟩ : BufTy).Contents (Elt Ideal)) (x1 x2 : (⟨S320000, .i32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    S10000x256.Idx → EReal :=
  Layer.affine (M := 10000)
    (Host.scatterAdd scatter_S10000x256_S320000x1_S320000x256_1_0_0_1
      (broadcastInDim S10000x256 ![] bcast_S_S10000x256 (constant (F := Ideal) S_ .f32 0x00000000#32))
      (broadcastInDim S320000x1 ![0] bcast_S320000_S320000x1_0 x2)
      (Layer.message (M := 320000)
        (Host.gather gather_S10000x256_S320000x1_S320000x256_1_0_n_n_0_1_1256 (truncf .bf16 x0 bitsLt_bf16_f32 : FVec Ideal S10000x256 .bf16)
          (broadcastInDim S320000x1 ![0] bcast_S320000_S320000x1_0
            (select (cmpi .slt x1 (broadcastInDim S320000 ![] bcast_S_S320000 (constantI S_ 32 0#32)))
              (addi x1 (broadcastInDim S320000 ![] bcast_S_S320000 (constantI S_ 32 10000#32))) x1)))
        x3 x4))
    x5 x6

end Cert.KernelIdeal.Whole

end
-- ==== Proof.KernelValue.lean ====
/-
  The kernel program's run ends with its result at `Whole.value` of the arguments.
  Reading back from the end: the result buffer holds what the final linear region leaves, the rows-against-columns
  form of its three entry arrays; its row operand is the scatter-add of what the message region leaves, again the
  rows-against-columns form of that region's entry arrays; and the weight and bias operands of both regions are the
  arguments transposed and reshaped, so each rows-against-columns form is the layer itself.
-/
import proofs.«150362_j50328426774758_1_alg».proof.Proof.ResultRun
import proofs.«150362_j50328426774758_1_alg».proof.Proof.MessageRegion
import proofs.«150362_j50328426774758_1_alg».proof.Proof.LinearRegion
import proofs.«150362_j50328426774758_1_alg».proof.Proof.Boundary
import proofs.«150362_j50328426774758_1_alg».proof.Proof.LayerForms
import proofs.«150362_j50328426774758_1_alg».proof.Proof.Value

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the message region leaves in its result array: the message layer of the gathered rows. -/
theorem message_array (c : Dev nD) :
    (dat0 (V1 m ρ) c).arrAt 3 cfg0.N = Layer.message (M := 320000)
      (Host.gather gather_S10000x256_S320000x1_S320000x256_1_0_n_n_0_1_1256
        (truncf .bf16 (m ((c : Thread nD τ).loc main_arg0)) bitsLt_bf16_f32 : FVec Ideal S10000x256 .bf16)
        (broadcastInDim S320000x1 ![0] bcast_S320000_S320000x1_0
          (select (cmpi .slt (m ((c : Thread nD τ).loc main_arg1)) (broadcastInDim S320000 ![] bcast_S_S320000 (constantI S_ 32 0#32)))
            (addi (m ((c : Thread nD τ).loc main_arg1)) (broadcastInDim S320000 ![] bcast_S_S320000 (constantI S_ 32 10000#32)))
            (m ((c : Thread nD τ).loc main_arg1)))))
      (m ((c : Thread nD τ).loc main_arg3)) (m ((c : Thread nD τ).loc main_arg4)) := by
  rw [MessageRegion.final (V1 m ρ) c, Boundary.message_rows, Boundary.message_weights, Boundary.message_bias,
    Layer.messageRows_transposed]

/-- The last boundary's contents at the result buffer: `value` of the launch contents of the arguments. -/
theorem boundary_value (c : Dev nD) :
    W4 m ρ c (Proc.devRef .tc main_v18) = value (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [boundary_result, LinearRegion.final (V3 m ρ) c, Boundary.linear_rows, Boundary.linear_weights, Boundary.linear_bias,
    Layer.affineRows_transposed, message_array]
  rfl

/-- THE KERNEL PROGRAM'S RUN: every weakly fair execution terminates, nothing faulting, with the result at `value` of
    the arguments and the arguments unchanged. -/
theorem run : θ_run defs (onTc (τ := τ) (main (F := Ideal))) ⟨m, fun _ => 0, ρ⟩ (fun r => ∀ c : Dev nD,
      r.2.mem ((c.tc : Thread nD τ).loc main_v18) = value (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (boundary_value m ρ c), (h c).2⟩) (run_boundary m ρ)

end Cert.KernelIdeal.Whole

end
-- ==== Proof.ReferenceValue.lean ====
/-
  The reference program's result term is `Whole.value` of the same arguments.
  The reference gathers the node features without narrowing them (the identity on the extended reals), takes the host's
  product with the transposed weights plus the broadcast bias, its maximum with zero, the same scatter-add, and the
  host's product and bias again: each of the two host products with its bias is the layer's affine map.
-/
import proofs.«150362_j50328426774758_1_alg».proof.Proof.Gen.ReferenceIdeal.Run
import proofs.«150362_j50328426774758_1_alg».proof.Proof.LayerForms
import proofs.«150362_j50328426774758_1_alg».proof.Proof.Value

noncomputable section

namespace Cert.ReferenceIdeal.RefValue

open Cert.ReferenceIdeal Cert.ReferenceIdeal.Gen Idealize.ShloMosaic

/-- The reference's two products have the plain dimension numbers. -/
theorem dot_message_plain : dot_S320000x256_S256x256_S320000x256_1_0_0_1_n_n = DotDims.plain 320000 256 256 := rfl
theorem dot_final_plain : dot_S10000x256_S256x256_S10000x256_1_0_0_1_n_n = DotDims.plain 10000 256 256 := rfl

/-- The reference run's result term is the kernel program's result function of the same arrays. -/
theorem result_eq (x0 : FVec Ideal S10000x256 .f32) (x1 x2 : IVec S320000 32)
    (x3 : FVec Ideal S256x256 .f32) (x4 : FVec Ideal S256 .f32) (x5 : FVec Ideal S256x256 .f32) (x6 : FVec Ideal S256 .f32) :
    (addf (Host.dotGeneral dot_S10000x256_S256x256_S10000x256_1_0_0_1_n_n none (Host.scatterAdd scatter_S10000x256_S320000x1_S320000x256_1_0_0_1 (broadcastInDim S10000x256 ![] bcast_S_S10000x256 (constant (F := Ideal) S_ .f32 0x00000000#32)) (broadcastInDim S320000x1 ![0] bcast_S320000_S320000x1_0 (x2)) (maximumf (addf (Host.dotGeneral dot_S320000x256_S256x256_S320000x256_1_0_0_1_n_n none (Host.gather gather_S10000x256_S320000x1_S320000x256_1_0_n_n_0_1_1256 (x0) (broadcastInDim S320000x1 ![0] bcast_S320000_S320000x1_0 (select (cmpi .slt (x1) (broadcastInDim S320000 ![] bcast_S_S320000 (constantI S_ 32 0#32))) (addi (x1) (broadcastInDim S320000 ![] bcast_S_S320000 (constantI S_ 32 10000#32))) (x1)))) (transpose S256x256 [1, 0] (x3) transposes_S256x256_S256x256_1_0)) (broadcastInDim S320000x256 ![0, 1] bcast_S1x256_S320000x256_0_1 (broadcastInDim S1x256 ![1] bcast_S256_S1x256_1 (x4)))) (broadcastInDim S320000x256 ![] bcast_S_S320000x256 (constant (F := Ideal) S_ .f32 0x00000000#32)))) (transpose S256x256 [1, 0] (x5) transposes_S256x256_S256x256_1_0)) (broadcastInDim S10000x256 ![0, 1] bcast_S1x256_S10000x256_0_1 (broadcastInDim S1x256 ![1] bcast_S256_S1x256_1 (x6))) : FVec Ideal S10000x256 .f32)
      = Cert.KernelIdeal.Whole.value x0 x1 x2 x3 x4 x5 x6 := by
  rw [dot_message_plain, dot_final_plain, Cert.Layer.message_host, Cert.Layer.affine_host]
  rfl

end Cert.ReferenceIdeal.RefValue

end
-- ==== Proof.lean ====
/-
  A graph message-passing layer, tiled, against its plain statement.

  Both programs compute, from node features `X`, edge endpoints `src`, `dst`, and two weight/bias pairs,
      out = (Σ_{e : dst e = n} max (X[src e] · Wmᵀ + bm, 0)) · Wfᵀ + bf .
  The kernel program narrows `X` and the transposed weights to a shorter float format, gathers on the host, computes
  the messages in forty row blocks of 8000 edges, scatter-adds on the host, and computes the final affine layer in five
  row blocks of 2000 nodes; the reference does each step on whole arrays.  On the extended reals a change of float
  format is the identity, a matrix product is the plain sum over the contracted coordinate however it is blocked by
  rows, and the row blocks tile their arrays, so both programs end at one function of the arguments (`Whole.value`).
  No law that needs finiteness is used: the two sums are equal term by term.

  The three frames: the two kernel programs' are the generated frame certificates; the reference's is its generated run
  with the result dropped.  The idealized kernel program rewrites nothing, so it is its own sanctioned idealization.
-/
import proofs.«150362_j50328426774758_1_alg».proof.Defs
import proofs.«150362_j50328426774758_1_alg».proof.Proof.Gen.Kernel
import proofs.«150362_j50328426774758_1_alg».proof.Proof.Gen.Kernel.Frame
import proofs.«150362_j50328426774758_1_alg».proof.Proof.Gen.KernelIdeal
import proofs.«150362_j50328426774758_1_alg».proof.Proof.Gen.KernelIdeal.Frame
import proofs.«150362_j50328426774758_1_alg».proof.Proof.Gen.ReferenceIdeal
import proofs.«150362_j50328426774758_1_alg».proof.Proof.Gen.Pre_finite_inputs
import proofs.«150362_j50328426774758_1_alg».proof.Proof.Gen.ReferenceIdeal.Run
import proofs.«150362_j50328426774758_1_alg».proof.Proof.KernelValue
import proofs.«150362_j50328426774758_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with the arguments unchanged. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both runs end at `Whole.value` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact Cert.ReferenceIdeal.RefValue.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
